-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S1 : Shape := ⟨1, ![1]⟩
abbrev S256 : Shape := ⟨1, ![256]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1 : S_.BroadcastsInDim S1 (![] : Fin 0 → Fin S1.rank)
  reducesTo_S1_S_d0 : S1.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S262144x128 .f32) (main_arg1 : FVec F S256x128 .f32) (main_arg2 : FVec F S256x128 .f32) (main_arg3 : FVec F S1 .f32) (main_arg4 : FVec F S256 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S262144x128 : Shape := ⟨2, ![262144, 128]⟩
abbrev S256x128 : Shape := ⟨2, ![256, 128]⟩
abbrev S1 : Shape := ⟨1, ![1]⟩
abbrev S256 : Shape := ⟨1, ![256]⟩
abbrev S_ : Shape := ⟨0, ![]⟩
abbrev S1x1 : Shape := ⟨2, ![1, 1]⟩
abbrev S1x256 : Shape := ⟨2, ![1, 256]⟩
abbrev S262144x256 : Shape := ⟨2, ![262144, 256]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S128x256 : Shape := ⟨2, ![128, 256]⟩

abbrev nBuf : Space → Nat
  | .hbm => 40
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256x128, .f32⟩
  | .hbm, ⟨3, _⟩ => ⟨S1, .f32⟩
  | .hbm, ⟨4, _⟩ => ⟨S256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S256x128, .f32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S256x128, .f32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S256x128, .bf16⟩
  | .hbm, ⟨37, _⟩ => ⟨S256x128, .bf16⟩
  | .hbm, ⟨38, _⟩ => ⟨S262144x128, .f32⟩
  | .hbm, ⟨39, _⟩ => ⟨S262144x256, .f32⟩
  | .local _ .vmem, ⟨0, _⟩ => ⟨S2048x128, .f32⟩
  | .local _ .vmem, ⟨1, _⟩ => ⟨S2048x128, .f32⟩
  | .local _ .vmem, ⟨2, _⟩ => ⟨S256x128, .bf16⟩
  | .local _ .vmem, ⟨3, _⟩ => ⟨S256x128, .bf16⟩
  | .local _ .vmem, ⟨4, _⟩ => ⟨S1x256, .f32⟩
  | .local _ .vmem, ⟨5, _⟩ => ⟨S1x256, .f32⟩
  | .local _ .vmem, ⟨6, _⟩ => ⟨S1x1, .f32⟩
  | .local _ .vmem, ⟨7, _⟩ => ⟨S1x256, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | .local _ .vmem, ⟨11, _⟩ => ⟨S2048x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  shapeCasts_S1_S_ : S1.ShapeCasts S_
  shapeCasts_S_S1x1 : S_.ShapeCasts S1x1
  bcast_S_S256 : S_.BroadcastsInDim S256 (![] : Fin 0 → Fin S256.rank)
  bcast_S256_S1x256_1 : S256.BroadcastsInDim S1x256 (![1] : Fin 1 → Fin S1x256.rank)
  reducesTo_S256x128_S256_d1 : S256x128.ReducesTo [1] S256
  h_S_ : 0 < S_.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S2048x128_S2048 : S2048x128.Reduces [1] S2048
  shapeCasts_S2048_S2048x1 : S2048.ShapeCasts S2048x1
  transposes_S256x128_p1_0_S128x256 : S256x128.Transposes [1, 0] S128x256
  broadcasts_S2048x1_S2048x256 : S2048x1.Broadcasts S2048x256
  broadcasts_S1x256_S2048x256 : S1x256.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S262144x256.size a
  hwx0_8 : ∀ i : grid0.Coords, EltTy.bits .f32 = 32 ∨ (Rect.block (s := S262144x256) S2048x256.size (cc0_transform_8 i) (hinb0_8 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S1 : Shape := ⟨1, ![1]⟩
abbrev S256 : Shape := ⟨1, ![256]⟩
abbrev S_ : Shape := ⟨0, ![]⟩
abbrev S1x256 : Shape := ⟨2, ![1, 256]⟩
abbrev S262144 : Shape := ⟨1, ![262144]⟩
abbrev S262144x1 : Shape := ⟨2, ![262144, 1]⟩
abbrev S262144x256 : Shape := ⟨2, ![262144, 256]⟩
abbrev S128x256 : Shape := ⟨2, ![128, 256]⟩

abbrev nBuf : Space → Nat
  | .hbm => 93
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256x128, .f32⟩
  | .hbm, ⟨3, _⟩ => ⟨S1, .f32⟩
  | .hbm, ⟨4, _⟩ => ⟨S256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S1x256, .f32⟩
  | .hbm, ⟨27, _⟩ => ⟨S262144x128, .f32⟩
  | .hbm, ⟨28, _⟩ => ⟨S_, .f32⟩
  | .hbm, ⟨29, _⟩ => ⟨S262144, .f32⟩
  | .hbm, ⟨30, _⟩ => ⟨S262144x1, .f32⟩
  | .hbm, ⟨31, _⟩ => ⟨S256x128, .f32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S128x256, .f32⟩
  | .hbm, ⟨39, _⟩ => ⟨S262144x256, .f32⟩
  | .hbm, ⟨40, _⟩ => ⟨S_, .f32⟩
  | .hbm, ⟨41, _⟩ => ⟨S262144x256, .f32⟩
  | .hbm, ⟨42, _⟩ => ⟨S262144x256, .f32⟩
  | .hbm, ⟨43, _⟩ => ⟨S262144x256, .f32⟩
  | .hbm, ⟨44, _⟩ => ⟨S_, .f32⟩
  | .hbm, ⟨45, _⟩ => ⟨S262144x256, .f32⟩
  | .hbm, ⟨46, _⟩ => ⟨S262144x256, .f32⟩
  | .hbm, ⟨47, _⟩ => ⟨S262144x256, .f32⟩
  | .hbm, ⟨48, _⟩ => ⟨S262144x128, .f32⟩
  | .hbm, ⟨49, _⟩ => ⟨S_, .f32⟩
  | .hbm, ⟨50, _⟩ => ⟨S262144, .f32⟩
  | .hbm, ⟨51, _⟩ => ⟨S262144x1, .f32⟩
  | .hbm, ⟨52, _⟩ => ⟨S256x128, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S262144x256, .f32⟩
  | .hbm, ⟨57, _⟩ => ⟨S262144x256, .f32⟩
  | .hbm, ⟨58, _⟩ => ⟨S262144x256, .f32⟩
  | .hbm, ⟨59, _⟩ => ⟨S128x256, .f32⟩
  | .hbm, ⟨60, _⟩ => ⟨S262144x256, .f32⟩
  | .hbm, ⟨61, _⟩ => ⟨S_, .f32⟩
  | .hbm, ⟨62, _⟩ => ⟨S262144x256, .f32⟩
  | .hbm, ⟨63, _⟩ => ⟨S262144x256, .f32⟩
  | .hbm, ⟨64, _⟩ => ⟨S262144x256, .f32⟩
  | .hbm, ⟨65, _⟩ => ⟨S_, .f32⟩
  | .hbm, ⟨66, _⟩ => ⟨S262144x256, .f32⟩
  | .hbm, ⟨67, _⟩ => ⟨S262144x256, .f32⟩
  | .hbm, ⟨68, _⟩ => ⟨S262144x256, .f32⟩
  | .hbm, ⟨69, _⟩ => ⟨S262144x256, .f32⟩
  | .hbm, ⟨70, _⟩ => ⟨S262144x256, .f32⟩
  | .hbm, ⟨71, _⟩ => ⟨S262144x256, .f32⟩
  | .hbm, ⟨72, _⟩ => ⟨S262144x256, .f32⟩
  | .hbm, ⟨73, _⟩ => ⟨S262144x256, .f32⟩
  | .hbm, ⟨74, _⟩ => ⟨S_, .f32⟩
  | .hbm, ⟨75, _⟩ => ⟨S262144, .f32⟩
  | .hbm, ⟨76, _⟩ => ⟨S262144x1, .f32⟩
  | .hbm, ⟨77, _⟩ => ⟨S_, .f32⟩
  | .hbm, ⟨78, _⟩ => ⟨S262144x1, .f32⟩
  | .hbm, ⟨79, _⟩ => ⟨S262144x1, .f32⟩
  | .hbm, ⟨80, _⟩ => ⟨S262144x256, .f32⟩
  | .hbm, ⟨81, _⟩ => ⟨S262144x256, .f32⟩
  | .hbm, ⟨82, _⟩ => ⟨S262144x256, .f32⟩
  | .hbm, ⟨83, _⟩ => ⟨S262144x256, .f32⟩
  | .hbm, ⟨84, _⟩ => ⟨S_, .f32⟩
  | .hbm, ⟨85, _⟩ => ⟨S262144, .f32⟩
  | .hbm, ⟨86, _⟩ => ⟨S262144x1, .f32⟩
  | .hbm, ⟨87, _⟩ => ⟨S_, .f32⟩
  | .hbm, ⟨88, _⟩ => ⟨S262144x1, .f32⟩
  | .hbm, ⟨89, _⟩ => ⟨S262144x1, .f32⟩
  | .hbm, ⟨90, _⟩ => ⟨S262144x256, .f32⟩
  | .hbm, ⟨91, _⟩ => ⟨S262144x256, .f32⟩
  | .hbm, ⟨92, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_15 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]

class Facts₀ : Prop where
  bcast_S_S1 : S_.BroadcastsInDim S1 (![] : Fin 0 → Fin S1.rank)
  shapeCasts_S1_S_ : S1.ShapeCasts S_
  bcast_S_S256 : S_.BroadcastsInDim S256 (![] : Fin 0 → Fin S256.rank)
  bcast_S256_S1x256_1 : S256.BroadcastsInDim S1x256 (![1] : Fin 1 → Fin S1x256.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S256x128_S256_d1 : S256x128.ReducesTo [1] S256
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  transposes_S256x128_S128x256_1_0 : S256x128.Transposes [1, 0] S128x256
  bcast_S_S262144x256 : S_.BroadcastsInDim S262144x256 (![] : Fin 0 → Fin S262144x256.rank)
  reducesTo_S262144x256_S262144_d1 : S262144x256.ReducesTo [1] S262144
  bcast_S_S262144x1 : S_.BroadcastsInDim S262144x1 (![] : Fin 0 → Fin S262144x1.rank)
  dot_S262144x128_S128x256_S262144x256_1_0_0_1_n_n_wf : DotDims.WF S262144x128 S128x256 S262144x256 [1] [0] [0] [1] [] []
  dot_S262144x256_S256x128_S262144x128_1_0_0_1_n_n_wf : DotDims.WF S262144x256 S256x128 S262144x128 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf

class Facts : Prop extends Facts₀ where

variable [Facts]
-- ==== Proof.Spec.lean ====
/-
  The soft self-organising-map assignment of one data row, as a function on the extended reals.

  For a row `x` of 128 features, two codebooks `P` and `G` of 256 rows each (with their squared row norms
  `ps`, `gs` supplied separately), a temperature `T` and a gate `gt` over the 256 codes:

    dist x P ps c = √ max (‖x‖² + ps c − 2·⟨x, P c⟩, ε_d)
    ew c          = exp (−(dist x P ps c + dist x G gs c) / T)
    u c           = ew c / (Σ ew + ε_w) · gt c
    rowW c        = u c / (Σ u + ε_w)
    rowB d        = Σ_c rowW c · P c d

  Every operation is the extended reals' own (`Ideal.div`, `Ideal.sqrt`, `Ideal.exp`, `max`); the three
  literals are kept as the binary words both programs print. The whole-array forms read row `i 0` of the data
  matrix and the single row of each `[1, 256]` parameter array.
-/
import Idealize.ShloMosaic.PureOps.Ideal
import Idealize.ShloMosaic.Lib.ValueIdx

noncomputable section

namespace Cert.SoftSom

open Idealize.ShloMosaic Idealize.ShloMosaic.ValueIdx

/-- The literal `2.0`. -/
abbrev two : EReal := Ideal.ofBits .f32 0x40000000#32
/-- The floor under a squared distance (the f32 nearest `1e-12`). -/
abbrev epsD : EReal := Ideal.ofBits .f32 0x2B8CBCCC#32
/-- The term added to each normalising sum (the f32 nearest `1e-8`). -/
abbrev epsW : EReal := Ideal.ofBits .f32 0x322BCC77#32

/-- A squared distance from its three parts, floored. -/
def clampD (a2 s dot : EReal) : EReal := max (a2 + s - two * dot) epsD

/-- The squared norm of a row. -/
def sqn (xr : Fin 128 → EReal) : EReal := ∑ k : Fin 128, xr k * xr k

/-- The inner product of two rows. -/
def dotr (xr pr : Fin 128 → EReal) : EReal := ∑ k : Fin 128, xr k * pr k

/-- The distance of the row to code `c` of a codebook whose squared row norms are `ps`. -/
def dist (xr : Fin 128 → EReal) (P : Fin 256 → Fin 128 → EReal) (ps : Fin 256 → EReal) (c : Fin 256) : EReal :=
  Ideal.sqrt (clampD (sqn xr) (ps c) (dotr xr (P c)))

/-- The unnormalised weight of code `c`, from the two distances of the row to that code. -/
def ewOf (dp dg T : EReal) : EReal := Ideal.exp (Ideal.div (-(dp + dg)) T)

/-- One normalisation over the 256 codes. -/
def norm1 (e : Fin 256 → EReal) (c : Fin 256) : EReal := Ideal.div (e c) ((∑ c' : Fin 256, e c') + epsW)

/-- Normalise, gate, normalise again. -/
def norm2 (e gt : Fin 256 → EReal) (c : Fin 256) : EReal := norm1 (fun c' => norm1 e c' * gt c') c

/-- The row's assignment weights. -/
def rowW (xr : Fin 128 → EReal) (P G : Fin 256 → Fin 128 → EReal) (ps gs : Fin 256 → EReal) (T : EReal)
    (gt : Fin 256 → EReal) (c : Fin 256) : EReal :=
  norm2 (fun c' => ewOf (dist xr P ps c') (dist xr G gs c') T) gt c

/-- The row's blend of the first codebook's rows. -/
def rowB (xr : Fin 128 → EReal) (P G : Fin 256 → Fin 128 → EReal) (ps gs : Fin 256 → EReal) (T : EReal)
    (gt : Fin 256 → EReal) (d : Fin 128) : EReal :=
  ∑ c : Fin 256, rowW xr P G ps gs T gt c * P c d

/-- Row `n` of an `M×128` matrix. -/
abbrev rowOf {M : Nat} (X : (⟨2, ![M, 128]⟩ : Shape).Idx → EReal) (n : Fin M) : Fin 128 → EReal := fun k => X (ix2 n k)
/-- A `256×128` codebook as rows. -/
abbrev book (P : (⟨2, ![256, 128]⟩ : Shape).Idx → EReal) : Fin 256 → Fin 128 → EReal := fun c k => P (ix2 c k)
/-- The one row of a `[1, 256]` array. -/
abbrev row1 (v : (⟨2, ![1, 256]⟩ : Shape).Idx → EReal) : Fin 256 → EReal := fun c => v (ix2 (0 : Fin 1) c)

/-- The weights of every row of an `M×128` data matrix: an `M×256` array. -/
def W {M : Nat} (X : (⟨2, ![M, 128]⟩ : Shape).Idx → EReal) (P G : (⟨2, ![256, 128]⟩ : Shape).Idx → EReal)
    (ps gs : (⟨2, ![1, 256]⟩ : Shape).Idx → EReal) (T : EReal) (gt : (⟨2, ![1, 256]⟩ : Shape).Idx → EReal) :
    (⟨2, ![M, 256]⟩ : Shape).Idx → EReal :=
  fun i => rowW (rowOf X (i 0)) (book P) (book G) (row1 ps) (row1 gs) T (row1 gt) (i 1)

/-- The blends of every row: an `M×128` array. -/
def B {M : Nat} (X : (⟨2, ![M, 128]⟩ : Shape).Idx → EReal) (P G : (⟨2, ![256, 128]⟩ : Shape).Idx → EReal)
    (ps gs : (⟨2, ![1, 256]⟩ : Shape).Idx → EReal) (T : EReal) (gt : (⟨2, ![1, 256]⟩ : Shape).Idx → EReal) :
    (⟨2, ![M, 128]⟩ : Shape).Idx → EReal :=
  fun i => rowB (rowOf X (i 0)) (book P) (book G) (row1 ps) (row1 gs) T (row1 gt) (i 1)

theorem W_ix2 {M : Nat} (X : (⟨2, ![M, 128]⟩ : Shape).Idx → EReal) (P G : (⟨2, ![256, 128]⟩ : Shape).Idx → EReal)
    (ps gs : (⟨2, ![1, 256]⟩ : Shape).Idx → EReal) (T : EReal) (gt : (⟨2, ![1, 256]⟩ : Shape).Idx → EReal)
    (n : Fin M) (q : Fin 256) :
    W X P G ps gs T gt (ix2 n q) = rowW (rowOf X n) (book P) (book G) (row1 ps) (row1 gs) T (row1 gt) q := rfl

theorem B_ix2 {M : Nat} (X : (⟨2, ![M, 128]⟩ : Shape).Idx → EReal) (P G : (⟨2, ![256, 128]⟩ : Shape).Idx → EReal)
    (ps gs : (⟨2, ![1, 256]⟩ : Shape).Idx → EReal) (T : EReal) (gt : (⟨2, ![1, 256]⟩ : Shape).Idx → EReal)
    (n : Fin M) (d : Fin 128) :
    B X P G ps gs T gt (ix2 n d) = rowB (rowOf X n) (book P) (book G) (row1 ps) (row1 gs) T (row1 gt) d := rfl

end Cert.SoftSom

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Payload.lean ====
/-
  The two values the idealized kernel body stores, over arbitrary loaded blocks.

  For a block of 2048 data rows the body computes, code by code, the distance of each row to the first codebook and
  the floored squared distance to the second (row norm kept as a column and broadcast, the codebook's norms broadcast
  as a row, the inner products by a product with the transposed codebook into a zero accumulator), turns the sum of the
  two distances into an unnormalised weight exp(−(dp + dg)/T) (negating by subtracting from zero), normalises over the
  256 codes, gates, normalises again, and multiplies the weights with the first codebook. Read at an index, each step
  is the specification's: the stored weights are `W` and the stored blend is `B` at 2048 rows.
-/
import proofs.«172261_j46643344834799_1_alg».proof.Proof.Gen.KernelIdeal.Skeleton
import proofs.«172261_j46643344834799_1_alg».proof.Proof.Spec
import proofs.«172261_j46643344834799_1_alg».proof.Proof.LibPlainDot
import proofs.«172261_j46643344834799_1_alg».proof.Proof.LibKeepdims
import Idealize.ShloMosaic.Lib.ValueLayout
import Idealize.ShloMosaic.Lib.Pipeline.Value

noncomputable section
namespace Cert.KernelIdeal.PayValue
open Cert.KernelIdeal Cert.KernelIdeal.Gen Idealize.ShloMosaic Idealize.ShloMosaic.ValueIdx

/-- A square root taken entry by entry reads, at an index, the square root of the entry. -/
theorem vsqrt_apply {s : Shape} {φ : FTy} (a : FVec Ideal s φ) (i : s.Idx) : sqrt a i = Ideal.sqrt (a i) := rfl
/-- An exponential taken entry by entry reads, at an index, the exponential of the entry. -/
theorem vexp_apply {s : Shape} {φ : FTy} (a : FVec Ideal s φ) (i : s.Idx) : exp a i = Ideal.exp (a i) := rfl

/-- The squared norm of each data row, kept as a column and broadcast over the 256 codes: at `(p, q)` it is the
    squared norm of row `p`. -/
theorem pay7_bcast (v0 : FVec Ideal S2048x128 .f32) (p : Fin 2048) (q : Fin 256) :
    broadcastTo S2048x256 (k0_pay7 (F := Ideal) v0) broadcasts_S2048x1_S2048x256 (ix2 p q)
      = Cert.SoftSom.sqn (Cert.SoftSom.rowOf v0 p) := by
  unfold k0_pay7
  exact Cert.Keepdims.rowSum_keep_bcast_apply (mulf v0 v0) _ _ _ _ _ _ p q

/-- The product of the data block with a transposed codebook, into a zero accumulator: at `(p, q)` it is the inner
    product of data row `p` with code row `q`. -/
theorem mm_T_apply (l : FVec Ideal S2048x128 .bf16) (w : FVec Ideal S256x128 .bf16) (p : Fin 2048) (q : Fin 256) :
    matmul (F := Ideal) dot_S2048x128_S128x256_S2048x256_1_0_0_1_n_n none l
        (transpose S128x256 [1, 0] w transposes_S256x128_p1_0_S128x256) (constant S2048x256 .f32 0x00000000#32) (ix2 p q)
      = Cert.SoftSom.dotr (fun k => l (ix2 p k)) (fun k => w (ix2 q k)) := by
  refine (Cert.PlainDot.matmul_zero_apply 2048 128 256 none l _ (ix2 p q)).trans ?_
  unfold Cert.SoftSom.dotr
  refine Finset.sum_congr rfl fun k _ => ?_
  exact congrArg (fun t => l (ix2 p k) * t) (transpose_ix2_apply w transposes_S256x128_p1_0_S128x256 k q)

/-- A `[1, 256]` parameter row, cast to its own shape and broadcast over the 2048 rows: at `(p, q)` it is entry `q`. -/
theorem row_bcast (v : FVec Ideal S1x256 .f32) (p : Fin 2048) (q : Fin 256) :
    broadcastTo S2048x256 (shapeCast S1x256 v shapeCasts_S1x256_S1x256) broadcasts_S1x256_S2048x256 (ix2 p q)
      = Cert.SoftSom.row1 v q := by
  rw [shapeCast_self]
  exact broadcastTo_1b_ab_apply v broadcasts_S1x256_S2048x256 p q

/-- A floored squared distance from its three parts. -/
theorem clampD_of_parts {a s d a' s' d' : EReal} (ha : a = a') (hs : s = s') (hd : d = d') :
    max (a + s - Ideal.ofBits .f32 0x40000000#32 * d) (Ideal.ofBits .f32 0x2B8CBCCC#32) = Cert.SoftSom.clampD a' s' d' := by
  subst ha hs hd; rfl

/-- The squared distance, floored, of data row `p` to code `q` of the second codebook. -/
theorem pay9_apply (v0 : FVec Ideal S2048x128 .f32) (v3 : FVec Ideal S256x128 .bf16) (v7 : FVec Ideal S1x256 .f32)
    (p : Fin 2048) (q : Fin 256) :
    k0_pay9 (F := Ideal) v0 v3 v7 (ix2 p q)
      = Cert.SoftSom.clampD (Cert.SoftSom.sqn (Cert.SoftSom.rowOf v0 p)) (Cert.SoftSom.row1 v7 q)
          (Cert.SoftSom.dotr (Cert.SoftSom.rowOf v0 p) (Cert.SoftSom.book v3 q)) := by
  unfold k0_pay9 k0_pay6
  refine clampD_of_parts (pay7_bcast v0 p q) (row_bcast v7 p q) ?_
  rw [shapeCast_self]
  exact mm_T_apply (truncf .bf16 v0 bitsLt_bf16_f32) v3 p q

/-- The distance of data row `p` to code `q` of the first codebook. -/
theorem pay8_apply (v0 : FVec Ideal S2048x128 .f32) (v1 : FVec Ideal S256x128 .bf16) (v5 : FVec Ideal S1x256 .f32)
    (p : Fin 2048) (q : Fin 256) :
    k0_pay8 (F := Ideal) v0 v1 v5 (ix2 p q)
      = Cert.SoftSom.dist (Cert.SoftSom.rowOf v0 p) (Cert.SoftSom.book v1) (Cert.SoftSom.row1 v5) q := by
  unfold k0_pay8 k0_pay6 k0_pay3 Cert.SoftSom.dist
  refine congrArg Ideal.sqrt (clampD_of_parts (pay7_bcast v0 p q) (row_bcast v5 p q) ?_)
  rw [shapeCast_self]
  exact mm_T_apply (truncf .bf16 v0 bitsLt_bf16_f32) v1 p q

/-- The sum of each row over the 256 codes, kept as a column, the small term added on the column, then broadcast back
    over the codes: at `(p, q)` it is the sum of row `p` plus the small term. -/
theorem keep_eps_bcast (src : FVec Ideal S2048x256 .f32) (p : Fin 2048) (q : Fin 256) :
    broadcastTo S2048x256
        (addf (shapeCast S2048x1 (multiReduction .add [1] S2048 src 0x00000000#32 reduces_S2048x256_S2048 (.inl rfl) rfl)
                shapeCasts_S2048_S2048x1)
              (broadcast S2048x1 (Scalar.ofBits (F := Ideal) .f32 0x322BCC77#32)))
        broadcasts_S2048x1_S2048x256 (ix2 p q)
      = (∑ c : Fin 256, src (ix2 p c)) + Cert.SoftSom.epsW := by
  refine (Cert.Keepdims.broadcastTo_a1_ab_apply _ broadcasts_S2048x1_S2048x256 p q).trans ?_
  exact congrArg (fun t => t + Cert.SoftSom.epsW)
    ((Cert.Keepdims.shapeCast_a_a1_apply _ shapeCasts_S2048_S2048x1 p 0).trans
      (Cert.Keepdims.sum_axis1_apply src _ _ _ _ p))

/-- One normalisation over the codes of a `[2048, 256]` array whose row `p` is `e`. -/
theorem norm1_of_vec (src : FVec Ideal S2048x256 .f32) (e : Fin 256 → EReal) (p : Fin 2048) (q : Fin 256)
    (h : ∀ c : Fin 256, src (ix2 p c) = e c) :
    divf src (broadcastTo S2048x256
        (addf (shapeCast S2048x1 (multiReduction .add [1] S2048 src 0x00000000#32 reduces_S2048x256_S2048 (.inl rfl) rfl)
                shapeCasts_S2048_S2048x1)
              (broadcast S2048x1 (Scalar.ofBits (F := Ideal) .f32 0x322BCC77#32)))
        broadcasts_S2048x1_S2048x256) (ix2 p q)
      = Cert.SoftSom.norm1 e q := by
  unfold Cert.SoftSom.norm1
  exact congrArg₂ Ideal.div (h q)
    ((keep_eps_bcast src p q).trans
      (congrArg (fun t => t + Cert.SoftSom.epsW) (Finset.sum_congr rfl fun c _ => h c)))

/-- The unnormalised weight: the kernel negates by subtracting from zero. -/
theorem ew_apply (v10 : EReal) (v35 v37 : FVec Ideal S2048x256 .f32) (p : Fin 2048) (c : Fin 256) :
    exp (divf (subf (broadcast S2048x256 (Scalar.ofBits (F := Ideal) .f32 0x00000000#32)) (addf v35 (sqrt v37)))
          (broadcast S2048x256 v10)) (ix2 p c)
      = Cert.SoftSom.ewOf (v35 (ix2 p c)) (Ideal.sqrt (v37 (ix2 p c))) v10 := by
  show Ideal.exp (Ideal.div (Ideal.ofBits .f32 0x00000000#32 - (v35 (ix2 p c) + Ideal.sqrt (v37 (ix2 p c)))) v10) = _
  rw [Ideal.ofBits_zero_f32, zero_sub]
  rfl

/-- The stored weights at `(p, q)`, from the two distance arrays: normalise, gate, normalise again. -/
theorem pay1_apply (v10 : EReal) (v12 : FVec Ideal S1x256 .f32) (v35 v37 : FVec Ideal S2048x256 .f32)
    (p : Fin 2048) (q : Fin 256) :
    k0_pay1 (F := Ideal) v10 v12 v35 v37 (ix2 p q)
      = Cert.SoftSom.norm2 (fun c => Cert.SoftSom.ewOf (v35 (ix2 p c)) (Ideal.sqrt (v37 (ix2 p c))) v10)
          (Cert.SoftSom.row1 v12) q := by
  unfold k0_pay1 Cert.SoftSom.norm2
  refine norm1_of_vec _ _ p q fun c => ?_
  exact congrArg₂ (fun a b : EReal => a * b)
    (norm1_of_vec _ _ p c fun c' => ew_apply v10 v35 v37 p c')
    (broadcastTo_1b_ab_apply v12 broadcasts_S1x256_S2048x256 p c)

/-- The temperature is the one entry of its `[1, 1]` block. -/
theorem pay4_eq (x5 : FVec Ideal S1x1 .f32) : k0_pay4 (F := Ideal) x5 = x5 (ix2 (0 : Fin 1) (0 : Fin 1)) := by
  unfold k0_pay4 extractAt
  exact congrArg x5 (funext fun a => Fin.ext (by
    match a with
    | ⟨0, _⟩ => rfl
    | ⟨1, _⟩ => rfl))

theorem pay5_eq (x6 : FVec Ideal S1x256 .f32) : k0_pay5 (F := Ideal) x6 = x6 := by
  unfold k0_pay5; exact shapeCast_self x6 _

theorem pay3_eq (x1 : FVec Ideal S256x128 .bf16) : k0_pay3 (F := Ideal) x1 = x1 := by
  unfold k0_pay3; exact shapeCast_self x1 _

/-- The blend at `(p, d)`: the weights of row `p` against column `d` of the codebook, into a zero accumulator (the
    narrowing of the weights is the identity on the extended reals). -/
theorem pay2_apply (v2 : FVec Ideal S256x128 .bf16) (v10 : EReal) (v12 : FVec Ideal S1x256 .f32)
    (v35 v37 : FVec Ideal S2048x256 .f32) (p : Fin 2048) (d : Fin 128) :
    k0_pay2 (F := Ideal) v2 v10 v12 v35 v37 (ix2 p d)
      = ∑ c : Fin 256, k0_pay1 (F := Ideal) v10 v12 v35 v37 (ix2 p c) * v2 (ix2 c d) := by
  unfold k0_pay2
  exact Cert.PlainDot.matmul_zero_apply 2048 256 128 none
    (truncf .bf16 (k0_pay1 (F := Ideal) v10 v12 v35 v37) bitsLt_bf16_f32) v2 (ix2 p d)

/-- The weights block of the kernel body is the specification's weights of the loaded rows. -/
theorem wblock (x0 : FVec Ideal S2048x128 .f32) (x1 x2 : FVec Ideal S256x128 .bf16) (x3 x4 : FVec Ideal S1x256 .f32)
    (x5 : FVec Ideal S1x1 .f32) (x6 : FVec Ideal S1x256 .f32) :
    k0_pay1 (F := Ideal) (k0_pay4 x5) (k0_pay5 x6) (k0_pay8 x0 x1 x3) (k0_pay9 x0 x2 x4)
      = Cert.SoftSom.W (M := 2048) x0 x1 x2 x3 x4 (x5 (ix2 (0 : Fin 1) (0 : Fin 1))) x6 := by
  funext j
  obtain ⟨p, q, rfl⟩ : ∃ (p : Fin 2048) (q : Fin 256), j = ix2 p q := ⟨j 0, j 1, eq_ix2 j⟩
  rw [pay4_eq, pay5_eq, Cert.SoftSom.W_ix2]
  refine (pay1_apply _ x6 _ _ p q).trans ?_
  unfold Cert.SoftSom.rowW
  refine congrArg (fun e => Cert.SoftSom.norm2 e (Cert.SoftSom.row1 x6) q) (funext fun c => ?_)
  rw [pay8_apply, pay9_apply]
  rfl

/-- The blend block of the kernel body is the specification's blend of the loaded rows. -/
theorem bblock (x0 : FVec Ideal S2048x128 .f32) (x1 x2 : FVec Ideal S256x128 .bf16) (x3 x4 : FVec Ideal S1x256 .f32)
    (x5 : FVec Ideal S1x1 .f32) (x6 : FVec Ideal S1x256 .f32) :
    k0_pay2 (F := Ideal) (k0_pay3 x1) (k0_pay4 x5) (k0_pay5 x6) (k0_pay8 x0 x1 x3) (k0_pay9 x0 x2 x4)
      = Cert.SoftSom.B (M := 2048) x0 x1 x2 x3 x4 (x5 (ix2 (0 : Fin 1) (0 : Fin 1))) x6 := by
  funext j
  obtain ⟨p, d, rfl⟩ : ∃ (p : Fin 2048) (d : Fin 128), j = ix2 p d := ⟨j 0, j 1, eq_ix2 j⟩
  rw [Cert.SoftSom.B_ix2]
  refine (pay2_apply _ _ _ _ _ p d).trans ?_
  unfold Cert.SoftSom.rowB
  refine Finset.sum_congr rfl fun c _ => ?_
  rw [pay3_eq]
  exact congrArg (fun t => t * x1 (ix2 c d)) (congrFun (wblock x0 x1 x2 x3 x4 x5 x6) (ix2 p c))

end Cert.KernelIdeal.PayValue
end
-- ==== Proof.Blocks.lean ====
/-
  From the blocks the grid points write back to the two whole result arrays.

  Grid point `t` (of 128) reads rows `2048·t … 2048·t + 2047` of the data matrix and the whole of each of the six
  parameter arrays, and writes rows `2048·t … 2048·t + 2047` of both results. A row of either result depends on the
  same row of the data matrix and on the parameter arrays only, so what point `t` writes is block `t` of one
  function of the whole arrays — the specification's `W` (weights) and `B` (blends) at 262144 rows — and the 128
  blocks tile each result array.
-/
import proofs.«172261_j46643344834799_1_alg».proof.Proof.Gen.KernelIdeal.Value
import proofs.«172261_j46643344834799_1_alg».proof.Proof.Spec
import proofs.«172261_j46643344834799_1_alg».proof.Proof.Payload
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)
open Cert.SoftSom

open Cert.KernelIdeal.PayValue

theorem hz : (![0, 0] : Fin 2 → Nat) = fun _ => 0 := funext fun a => by fin_cases a <;> rfl

/-! ## What the body leaves in the two output blocks, from arbitrary input blocks -/

/-- The weights block the body stores is the specification's weights of the 2048 loaded rows. -/
theorem out8_eq (x0 : Vec Ideal S2048x128 .f32) (x1 x2 : Vec Ideal S256x128 .bf16) (x3 x4 : Vec Ideal S1x256 .f32)
    (x5 : Vec Ideal S1x1 .f32) (x6 : Vec Ideal S1x256 .f32) :
    out0_8 x0 x1 x2 x3 x4 x5 x6 = W (M := 2048) x0 x1 x2 x3 x4 (x5 (ix2 (0 : Fin 1) (0 : Fin 1))) x6 := by
  unfold out0_8
  rw [View.canon_unit_zero hz]
  simp only [View.ld_unit_zero (S := S2048x128) hz, View.ld_unit_zero (S := S256x128) hz, View.ld_unit_zero (S := S1x256) hz, View.ld_unit_zero (S := S1x1) hz]
  exact wblock x0 x1 x2 x3 x4 x5 x6

/-- The blends block the body stores is the specification's blends of the 2048 loaded rows. -/
theorem out7_eq (x0 : Vec Ideal S2048x128 .f32) (x1 x2 : Vec Ideal S256x128 .bf16) (x3 x4 : Vec Ideal S1x256 .f32)
    (x5 : Vec Ideal S1x1 .f32) (x6 : Vec Ideal S1x256 .f32) :
    out0_7 x0 x1 x2 x3 x4 x5 x6 = B (M := 2048) x0 x1 x2 x3 x4 (x5 (ix2 (0 : Fin 1) (0 : Fin 1))) x6 := by
  unfold out0_7
  rw [View.canon_unit_zero hz]
  simp only [View.ld_unit_zero (S := S2048x128) hz, View.ld_unit_zero (S := S256x128) hz, View.ld_unit_zero (S := S1x256) hz, View.ld_unit_zero (S := S1x1) hz]
  exact bblock x0 x1 x2 x3 x4 x5 x6

/-! ## The index maps -/

/-- The printed index maps, decided over the 128 grid points: the data window and the two result windows are at
    block row `t`, block column 0; every parameter window is at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## A parameter window's block is its whole array -/

theorem read1 (A : S256x128.Idx → EReal) (t : Fin cfg0.N) : ((cfg0.win 1).blk t).view.read (Elt Ideal) A = A := by
  obtain ⟨-, ⟨e0, e1⟩, -⟩ := idx_facts t
  funext y
  rw [View.read_apply]
  refine congrArg A (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem read2 (A : S256x128.Idx → EReal) (t : Fin cfg0.N) : ((cfg0.win 2).blk t).view.read (Elt Ideal) A = A := by
  obtain ⟨-, -, ⟨e0, e1⟩, -⟩ := idx_facts t
  funext y
  rw [View.read_apply]
  refine congrArg A (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem read3 (A : S1x256.Idx → EReal) (t : Fin cfg0.N) : ((cfg0.win 3).blk t).view.read (Elt Ideal) A = A := by
  obtain ⟨-, -, -, ⟨e0, e1⟩, -⟩ := idx_facts t
  funext y
  rw [View.read_apply]
  refine congrArg A (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem read4 (A : S1x256.Idx → EReal) (t : Fin cfg0.N) : ((cfg0.win 4).blk t).view.read (Elt Ideal) A = A := by
  obtain ⟨-, -, -, -, ⟨e0, e1⟩, -⟩ := idx_facts t
  funext y
  rw [View.read_apply]
  refine congrArg A (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem read5 (A : S1x1.Idx → EReal) (t : Fin cfg0.N) : ((cfg0.win 5).blk t).view.read (Elt Ideal) A = A := by
  obtain ⟨-, -, -, -, -, ⟨e0, e1⟩, -⟩ := idx_facts t
  funext y
  rw [View.read_apply]
  refine congrArg A (funext fun a => Fin.ext ?_)
  match a with
  | ⟨0, _⟩ => show win0_5.index t (0 : Fin 2) * 1 + 1 * (y 0).val = (y 0).val; omega
  | ⟨1, _⟩ => show win0_5.index t (1 : Fin 2) * 1 + 1 * (y 1).val = (y 1).val; omega

theorem read6 (A : S1x256.Idx → EReal) (t : Fin cfg0.N) : ((cfg0.win 6).blk t).view.read (Elt Ideal) A = A := by
  obtain ⟨-, -, -, -, -, -, ⟨e0, e1⟩, -⟩ := idx_facts t
  funext y
  rw [View.read_apply]
  refine congrArg A (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-! ## Block `t` of the whole-array functions -/

theorem rowW_congr {xr xr' : Fin 128 → EReal} {P P' G G' : Fin 256 → Fin 128 → EReal} {ps ps' gs gs' gt gt' : Fin 256 → EReal}
    {T T' : EReal} {q q' : Fin 256} (h1 : xr = xr') (h2 : P = P') (h3 : G = G') (h4 : ps = ps') (h5 : gs = gs') (h6 : T = T')
    (h7 : gt = gt') (h8 : q = q') : rowW xr P G ps gs T gt q = rowW xr' P' G' ps' gs' T' gt' q' := by
  subst h1 h2 h3 h4 h5 h6 h7 h8; rfl

theorem rowB_congr {xr xr' : Fin 128 → EReal} {P P' G G' : Fin 256 → Fin 128 → EReal} {ps ps' gs gs' gt gt' : Fin 256 → EReal}
    {T T' : EReal} {d d' : Fin 128} (h1 : xr = xr') (h2 : P = P') (h3 : G = G') (h4 : ps = ps') (h5 : gs = gs') (h6 : T = T')
    (h7 : gt = gt') (h8 : d = d') : rowB xr P G ps gs T gt d = rowB xr' P' G' ps' gs' T' gt' d' := by
  subst h1 h2 h3 h4 h5 h6 h7 h8; rfl

/-- Row `p` of the data window's block at point `t` is row `2048·t + p` of the data matrix — the row the two result
    windows' blocks at `t` place at their row `p`. -/
theorem row_block (A0 : S262144x128.Idx → EReal) (t : Fin cfg0.N) (p : Fin 2048) (n : Fin 262144)
    (hn : n.val = t.val * 2048 + p.val) :
    rowOf (M := 2048) (((cfg0.win 0).blk t).view.read (Elt Ideal) A0) p = rowOf (M := 262144) A0 n := by
  obtain ⟨⟨e0, e1⟩, -⟩ := idx_facts t
  funext k
  show ((cfg0.win 0).blk t).view.read (Elt Ideal) A0 (ix2 p k) = A0 (ix2 n k)
  rw [View.read_apply]
  refine congrArg A0 (funext fun a => Fin.ext ?_)
  match a with
  | ⟨0, _⟩ => show win0_0.index t (0 : Fin 2) * 2048 + 1 * p.val = n.val; omega
  | ⟨1, _⟩ => show win0_0.index t (1 : Fin 2) * 128 + 1 * k.val = k.val; omega

/-- What point `t` writes back of the weights is block `t` of the whole-array weights. -/
theorem wread (A0 : S262144x128.Idx → EReal) (A1 A2 : S256x128.Idx → EReal) (A3 A4 : S1x256.Idx → EReal)
    (A5 : S1x1.Idx → EReal) (A6 : S1x256.Idx → EReal) (t : Fin cfg0.N) :
    (cfg0.win 8).cut (grid0.coords t)
      (W (M := 2048) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
        ((((cfg0.win 5).blk t).view.read (Elt Ideal) A5) (ix2 (0 : Fin 1) (0 : Fin 1)))
        (((cfg0.win 6).blk t).view.read (Elt Ideal) A6))
      = ((cfg0.win 8).blk t).view.read (Elt Ideal) (W (M := 262144) A0 A1 A2 A3 A4 (A5 (ix2 (0 : Fin 1) (0 : Fin 1))) A6) := by
  obtain ⟨-, -, -, -, -, -, -, -, ⟨e0, e1⟩⟩ := idx_facts t
  rw [read1, read2, read3, read4, read5, read6]
  funext j
  rw [View.read_apply]
  have hj0 : (j 0).val < 2048 := (j 0).isLt
  have hj1 : (j 1).val < 256 := (j 1).isLt
  refine rowW_congr (row_block A0 t ⟨(j 0).val, hj0⟩ _ ?_) rfl rfl rfl rfl rfl rfl (Fin.ext ?_)
  · show win0_8.index t (0 : Fin 2) * 2048 + 1 * (j 0).val = t.val * 2048 + (j 0).val; omega
  · show (j 1).val = win0_8.index t (1 : Fin 2) * 256 + 1 * (j 1).val; omega

/-- What point `t` writes back of the blends is block `t` of the whole-array blends. -/
theorem bread (A0 : S262144x128.Idx → EReal) (A1 A2 : S256x128.Idx → EReal) (A3 A4 : S1x256.Idx → EReal)
    (A5 : S1x1.Idx → EReal) (A6 : S1x256.Idx → EReal) (t : Fin cfg0.N) :
    (cfg0.win 7).cut (grid0.coords t)
      (B (M := 2048) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
        ((((cfg0.win 5).blk t).view.read (Elt Ideal) A5) (ix2 (0 : Fin 1) (0 : Fin 1)))
        (((cfg0.win 6).blk t).view.read (Elt Ideal) A6))
      = ((cfg0.win 7).blk t).view.read (Elt Ideal) (B (M := 262144) A0 A1 A2 A3 A4 (A5 (ix2 (0 : Fin 1) (0 : Fin 1))) A6) := by
  obtain ⟨-, -, -, -, -, -, -, ⟨e0, e1⟩, -⟩ := idx_facts t
  rw [read1, read2, read3, read4, read5, read6]
  funext j
  rw [View.read_apply]
  have hj0 : (j 0).val < 2048 := (j 0).isLt
  have hj1 : (j 1).val < 128 := (j 1).isLt
  refine rowB_congr (row_block A0 t ⟨(j 0).val, hj0⟩ _ ?_) rfl rfl rfl rfl rfl rfl (Fin.ext ?_)
  · show win0_7.index t (0 : Fin 2) * 2048 + 1 * (j 0).val = t.val * 2048 + (j 0).val; omega
  · show (j 1).val = win0_7.index t (1 : Fin 2) * 128 + 1 * (j 1).val; omega

/-! ## The two result arrays after the run -/

variable (m : (ℓ : Loc nD τ sig) → Buf (Elt Ideal) ℓ) (ρ : Dev nD → PrngReg)

/-- The weights of every data row, from the arrays as the region finds them. -/
def Wk (c : Dev nD) : S262144x256.Idx → EReal :=
  W (M := 262144) (V m c main_arg0) (V m c main_v23) (V m c main_v24) (V m c main_v19) (V m c main_v22)
    ((V m c main_v9 : S1x1.Idx → EReal) (ix2 (0 : Fin 1) (0 : Fin 1))) (V m c main_v16)

/-- The blends of every data row, from the arrays as the region finds them. -/
def Bk (c : Dev nD) : S262144x128.Idx → EReal :=
  B (M := 262144) (V m c main_arg0) (V m c main_v23) (V m c main_v24) (V m c main_v19) (V m c main_v22)
    ((V m c main_v9 : S1x1.Idx → EReal) (ix2 (0 : Fin 1) (0 : Fin 1))) (V m c main_v16)

/-- WHAT POINT `t` WRITES BACK to the weights array is block `t` of `Wk`. -/
theorem flushed8_eq (c : Dev nD) (t : Fin cfg0.N) :
    (dats m 0 c).flushed 8 t = ((cfg0.win 8).blk t).view.read (Elt Ideal) (Wk m c) := by
  rw [Cert.KernelIdeal.Value.flushed8, out8_eq]
  unfold Wk
  exact wread (V m c main_arg0) (V m c main_v23) (V m c main_v24) (V m c main_v19) (V m c main_v22) (V m c main_v9) (V m c main_v16) t

/-- WHAT POINT `t` WRITES BACK to the blends array is block `t` of `Bk`. -/
theorem flushed7_eq (c : Dev nD) (t : Fin cfg0.N) :
    (dats m 0 c).flushed 7 t = ((cfg0.win 7).blk t).view.read (Elt Ideal) (Bk m c) := by
  rw [Cert.KernelIdeal.Value.flushed7, out7_eq]
  unfold Bk
  exact bread (V m c main_arg0) (V m c main_v23) (V m c main_v24) (V m c main_v19) (V m c main_v22) (V m c main_v9) (V m c main_v16) t

/-- An index of the weights array is in point `t`'s block iff each coordinate is in the block's range. -/
theorem mem_blk8 (t : Fin cfg0.N) (i : S262144x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v25_1).slice (win0_8.rect t)).set ↔ _
  rw [View.set_slice_whole, Rect.mem_set_unit]
  exact Iff.rfl

theorem mem_blk7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v25_0).slice (win0_7.rect t)).set ↔ _
  rw [View.set_slice_whole, Rect.mem_set_unit]
  exact Iff.rfl

/-- Row `r` of the weights array is in the block of point `r / 2048`: the 128 blocks tile the array. -/
theorem cover8 (i : S262144x256.Idx) : ∃ t : Fin cfg0.N, (cfg0.win 8).flush t = true ∧ i ∈ ((cfg0.win 8).blk t).view.set := by
  have hi0 : (i 0).val < 262144 := (i 0).isLt
  have hi1 : (i 1).val < 256 := (i 1).isLt
  have ht : (i 0).val / 2048 < cfg0.N := by rw [show cfg0.N = 128 from N_0]; omega
  obtain ⟨-, -, -, -, -, -, -, -, ⟨e0, e1⟩⟩ := idx_facts ⟨(i 0).val / 2048, ht⟩
  refine ⟨⟨(i 0).val / 2048, ht⟩, flush0_8 _, ?_⟩
  rw [mem_blk8]
  intro a
  match a with
  | ⟨0, _⟩ =>
    show win0_8.index ⟨(i 0).val / 2048, ht⟩ (0 : Fin 2) * 2048 ≤ (i 0).val ∧ (i 0).val < win0_8.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, ht⟩ (1 : Fin 2) * 256 ≤ (i 1).val ∧ (i 1).val < win0_8.index ⟨(i 0).val / 2048, ht⟩ (1 : Fin 2) * 256 + 256
    rw [e1]; omega

theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have ht : (i 0).val / 2048 < cfg0.N := by rw [show cfg0.N = 128 from N_0]; omega
  obtain ⟨-, -, -, -, -, -, -, ⟨e0, e1⟩, -⟩ := idx_facts ⟨(i 0).val / 2048, ht⟩
  refine ⟨⟨(i 0).val / 2048, ht⟩, flush0_7 _, ?_⟩
  rw [mem_blk7]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, ht⟩ (1 : Fin 2) * 128 ≤ (i 1).val ∧ (i 1).val < win0_7.index ⟨(i 0).val / 2048, ht⟩ (1 : Fin 2) * 128 + 128
    rw [e1]; omega

/-- The weights array after the run. -/
theorem final8 (c : Dev nD) : (dats m 0 c).arrAt 8 cfg0.N = Wk m c :=
  (dats m 0 c).arrAt_eq_of_cover 8 (Wk m c) (fun t _ => flushed8_eq m c t) cover8

/-- The blends array after the run. -/
theorem final7 (c : Dev nD) : (dats m 0 c).arrAt 7 cfg0.N = Bk m c :=
  (dats m 0 c).arrAt_eq_of_cover 7 (Bk m c) (fun t _ => flushed7_eq m c t) cover7

/-- The kernel's run with both result arrays named as whole-array functions, the arguments unchanged. -/
theorem run : θ_run defs (onTc (τ := τ) (main (F := Ideal))) ⟨m, fun _ => 0, ρ⟩ fun r => ∀ c : Dev nD,
      r.2.mem ((c : Thread nD τ).loc main_v25_0) = Bk m c
      ∧ r.2.mem ((c : Thread nD τ).loc main_v25_1) = Wk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c), (h c).2.1.trans (final8 m c), (h c).2.2⟩)
    (Cert.KernelIdeal.Value.run_blocks m ρ)

end Cert.KernelIdeal.BlockValue

end
-- ==== Proof.HostValue.lean ====
/-
  The arrays the kernel's region finds in its six parameter windows, as functions of the arguments.

  Before the region the program computes, on the host: the temperature (a logistic of the one-element argument,
  scaled and shifted, kept as a `[1, 1]` array), the gate (a logistic of the 256 gate logits, as a `[1, 256]` row),
  the squared row norms of the two codebooks (each a `[1, 256]` row), and the two codebooks changed to the
  narrower format (the identity on the extended reals). The reference program computes the same temperature,
  gate and squared norms by the same operations in the same order; its read-back names them as stages, and each
  array here is that stage of the same argument, by unfolding both.
-/
import proofs.«172261_j46643344834799_1_alg».proof.Proof.Gen.KernelIdeal.Frame
import proofs.«172261_j46643344834799_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first codebook's squared row norms, as the region finds them: the reference's stage of the same argument. -/
theorem V_psq (c : Dev nD) :
    (V m c main_v19 : S1x256.Idx → EReal)
      = Cert.ReferenceIdeal.Read.val_main_v21 (F := Ideal) (m ((c : Thread nD τ).loc main_arg1)) := by
  dsimp only [Gen.V, Gen.hostOps0]; after_results_simp; rfl

/-- The second codebook's squared row norms. -/
theorem V_gsq (c : Dev nD) :
    (V m c main_v22 : S1x256.Idx → EReal)
      = Cert.ReferenceIdeal.Read.val_main_v38 (F := Ideal) (m ((c : Thread nD τ).loc main_arg2)) := by
  dsimp only [Gen.V, Gen.hostOps0]; after_results_simp; rfl

/-- The gate row. -/
theorem V_gate (c : Dev nD) :
    (V m c main_v16 : S1x256.Idx → EReal)
      = Cert.ReferenceIdeal.Read.val_main_v15 (F := Ideal) (m ((c : Thread nD τ).loc main_arg4)) := by
  dsimp only [Gen.V, Gen.hostOps0]; after_results_simp; rfl

/-- The temperature's `[1, 1]` array is the reference's scalar stage, re-shaped. -/
theorem V_temp (c : Dev nD) :
    (V m c main_v9 : S1x1.Idx → EReal)
      = shapeCast S1x1 (Cert.ReferenceIdeal.Read.val_main_v8 (F := Ideal) (m ((c : Thread nD τ).loc main_arg3))) shapeCasts_S_S1x1 := by
  dsimp only [Gen.V, Gen.hostOps0]; after_results_simp; rfl

/-- Its one entry is the reference's temperature. -/
theorem V_temp_apply (c : Dev nD) :
    (V m c main_v9 : S1x1.Idx → EReal) (ix2 (0 : Fin 1) (0 : Fin 1))
      = Cert.ReferenceIdeal.Read.val_main_v8 (F := Ideal) (m ((c : Thread nD τ).loc main_arg3)) ix0 := by
  rw [V_temp]
  exact shapeCast_apply _ shapeCasts_S_S1x1 _ _ (by
    rw [Shape.rowMajor_val_two]
    show (Shape.rowMajorPi _ _).val = 0 * 1 + 0
    rw [Shape.rowMajorPi_zero])

/-- The first codebook in the narrower format is the argument itself. -/
theorem V_pb (c : Dev nD) :
    (V m c main_v23 : S256x128.Idx → EReal) = m ((c : Thread nD τ).loc main_arg1) := by
  dsimp only [Gen.V, Gen.hostOps0]; after_results_simp; rfl

/-- The second codebook in the narrower format is the argument itself. -/
theorem V_gb (c : Dev nD) :
    (V m c main_v24 : S256x128.Idx → EReal) = m ((c : Thread nD τ).loc main_arg2) := by
  dsimp only [Gen.V, Gen.hostOps0]; after_results_simp; rfl

end Cert.KernelIdeal.HostValue

end
-- ==== Proof.RefValue.lean ====
/-
  The reference program computes the soft self-organising-map assignment of the specification.

  Reading the reference's operations one at a time at an index `(n, c)`:
    * its squared row norms are the zero word plus `∑ k, x(n,k)·x(n,k)`, broadcast along the row;
    * each product against a transposed codebook reads `∑ k, x(n,k)·P(c,k)`;
    * the two distances, their negated sum over the temperature and its exponential are pointwise;
    * each normalising sum is the zero word plus the sum over the codes of the operand's row `n`,
      broadcast along the row, with the small literal added;
    * the last product reads `∑ c, w(n,c)·P(c,d)`.
  The four small arrays computed from the parameters alone (the two codebooks' squared row norms, the
  temperature and the gate) are never opened: they are carried as the reference's own stages.
-/
import proofs.«172261_j46643344834799_1_alg».proof.Proof.Gen.ReferenceIdeal.Read
import proofs.«172261_j46643344834799_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SoftSom

/-! ## The index functions of the layout operations, at coordinates -/

/-- Row `n` of the `[262144, 1]` column, read back through the broadcast along the row. -/
theorem idx_col (n : Fin 262144) (c : Fin 256) : idx_main_v22 (ix2 n c) = ix2 n (0 : Fin 1) :=
  funext fun a => Fin.ext (by match a with | ⟨0, _⟩ => rfl | ⟨1, _⟩ => rfl)

/-- The column's row `n` is entry `n` of the vector it was made from. -/
theorem idx_vec (n : Fin 262144) : idx_main_v18 (ix2 n (0 : Fin 1)) = ix1 n :=
  funext fun a => Fin.ext (by match a with | ⟨0, _⟩ => rfl)

/-- Column `c` of the `[1, 256]` row, read back through the broadcast down the rows. -/
theorem idx_row (n : Fin 262144) (c : Fin 256) : idx_main_v23 (ix2 n c) = ix2 (0 : Fin 1) c :=
  funext fun a => Fin.ext (by match a with | ⟨0, _⟩ => rfl | ⟨1, _⟩ => rfl)

/-- The summed axis of a `[262144, 128]` array at row `n`. -/
theorem idx_sum128 (n : Fin 262144) (k : Fin 128) : idx_main_v17 (ix1 n) k = ix2 n k :=
  funext fun a => Fin.ext (by match a with | ⟨0, _⟩ => rfl | ⟨1, _⟩ => rfl)

/-- The summed axis of a `[262144, 256]` array at row `n`. -/
theorem idx_sum256 (n : Fin 262144) (k : Fin 256) : idx_main_v55 (ix1 n) k = ix2 n k :=
  funext fun a => Fin.ext (by match a with | ⟨0, _⟩ => rfl | ⟨1, _⟩ => rfl)

/-- The left operand of the product against a transposed codebook: row `n` of the data. -/
theorem idx_dotl (n : Fin 262144) (c : Fin 256) (k : Fin 128) : lidx_main_v26 (ix2 n c) k = ix2 n k :=
  funext fun a => Fin.ext (by match a with | ⟨0, _⟩ => rfl | ⟨1, _⟩ => rfl)

/-- Its right operand, read through the transpose: row `c` of the codebook. -/
theorem idx_dotr (n : Fin 262144) (c : Fin 256) (k : Fin 128) :
    idx_main_v25 (ridx_main_v26 (ix2 n c) k) = ix2 c k :=
  funext fun a => Fin.ext (by match a with | ⟨0, _⟩ => rfl | ⟨1, _⟩ => rfl)

/-- The left operand of the last product: row `n` of the weights. -/
theorem idx_outl (n : Fin 262144) (d : Fin 128) (k : Fin 256) : lidx_main_v69 (ix2 n d) k = ix2 n k :=
  funext fun a => Fin.ext (by match a with | ⟨0, _⟩ => rfl | ⟨1, _⟩ => rfl)

/-- Its right operand: column `d` of the first codebook. -/
theorem idx_outr (n : Fin 262144) (d : Fin 128) (k : Fin 256) : ridx_main_v69 (ix2 n d) k = ix2 k d :=
  funext fun a => Fin.ext (by match a with | ⟨0, _⟩ => rfl | ⟨1, _⟩ => rfl)

/-- The same index facts for the second codebook's copies of these operations. -/
theorem idx_col' (n : Fin 262144) (c : Fin 256) : idx_main_v39 (ix2 n c) = ix2 n (0 : Fin 1) :=
  funext fun a => Fin.ext (by match a with | ⟨0, _⟩ => rfl | ⟨1, _⟩ => rfl)

theorem idx_vec' (n : Fin 262144) : idx_main_v35 (ix2 n (0 : Fin 1)) = ix1 n :=
  funext fun a => Fin.ext (by match a with | ⟨0, _⟩ => rfl)

theorem idx_row' (n : Fin 262144) (c : Fin 256) : idx_main_v40 (ix2 n c) = ix2 (0 : Fin 1) c :=
  funext fun a => Fin.ext (by match a with | ⟨0, _⟩ => rfl | ⟨1, _⟩ => rfl)

theorem idx_sum128' (n : Fin 262144) (k : Fin 128) : idx_main_v34 (ix1 n) k = ix2 n k :=
  funext fun a => Fin.ext (by match a with | ⟨0, _⟩ => rfl | ⟨1, _⟩ => rfl)

theorem idx_dotl' (n : Fin 262144) (c : Fin 256) (k : Fin 128) : lidx_main_v43 (ix2 n c) k = ix2 n k :=
  funext fun a => Fin.ext (by match a with | ⟨0, _⟩ => rfl | ⟨1, _⟩ => rfl)

theorem idx_dotr' (n : Fin 262144) (c : Fin 256) (k : Fin 128) :
    idx_main_v42 (ridx_main_v43 (ix2 n c) k) = ix2 c k :=
  funext fun a => Fin.ext (by match a with | ⟨0, _⟩ => rfl | ⟨1, _⟩ => rfl)

/-- The index facts of the two normalisations: the column of sums read along row `n`, and the gate's row. -/
theorem idx_col1 (n : Fin 262144) (c : Fin 256) : idx_main_v59 (ix2 n c) = ix2 n (0 : Fin 1) :=
  funext fun a => Fin.ext (by match a with | ⟨0, _⟩ => rfl | ⟨1, _⟩ => rfl)

theorem idx_vec1 (n : Fin 262144) : idx_main_v56 (ix2 n (0 : Fin 1)) = ix1 n :=
  funext fun a => Fin.ext (by match a with | ⟨0, _⟩ => rfl)

theorem idx_gate (n : Fin 262144) (c : Fin 256) : idx_main_v61 (ix2 n c) = ix2 (0 : Fin 1) c :=
  funext fun a => Fin.ext (by match a with | ⟨0, _⟩ => rfl | ⟨1, _⟩ => rfl)

theorem idx_sum256' (n : Fin 262144) (k : Fin 256) : idx_main_v63 (ix1 n) k = ix2 n k :=
  funext fun a => Fin.ext (by match a with | ⟨0, _⟩ => rfl | ⟨1, _⟩ => rfl)

theorem idx_col2 (n : Fin 262144) (c : Fin 256) : idx_main_v67 (ix2 n c) = ix2 n (0 : Fin 1) :=
  funext fun a => Fin.ext (by match a with | ⟨0, _⟩ => rfl | ⟨1, _⟩ => rfl)

theorem idx_vec2 (n : Fin 262144) : idx_main_v64 (ix2 n (0 : Fin 1)) = ix1 n :=
  funext fun a => Fin.ext (by match a with | ⟨0, _⟩ => rfl)

/-! ## The squared norm of a data row -/

/-- The reference's row sum of squares is the specification's squared norm of row `n`. -/
theorem sqn_x (x0 : (⟨S262144x128, .f32⟩ : BufTy).Contents (Elt Ideal)) (n : Fin 262144) :
    val_main_v17 (F := Ideal) x0 (ix1 n) = sqn (rowOf x0 n) := by
  rw [val_main_v17_apply, val_main_cst_5_apply, Ideal.ofBits_def, Ideal.ofBits_zero_f32, zero_add]
  unfold sqn
  refine Finset.sum_congr rfl fun k _ => ?_
  rw [val_main_v16_apply, Ideal.mulf_def, idx_sum128]

theorem sqn_x' (x0 : (⟨S262144x128, .f32⟩ : BufTy).Contents (Elt Ideal)) (n : Fin 262144) :
    val_main_v34 (F := Ideal) x0 (ix1 n) = sqn (rowOf x0 n) := by
  rw [val_main_v34_apply, val_main_cst_9_apply, Ideal.ofBits_def, Ideal.ofBits_zero_f32, zero_add]
  unfold sqn
  refine Finset.sum_congr rfl fun k _ => ?_
  rw [val_main_v33_apply, Ideal.mulf_def, idx_sum128']

/-! ## The inner product of a data row with a codebook row -/

/-- The product against the transposed first codebook reads the inner product of row `n` with code `c`. -/
theorem dot_p (x0 : (⟨S262144x128, .f32⟩ : BufTy).Contents (Elt Ideal)) (x1 : (⟨S256x128, .f32⟩ : BufTy).Contents (Elt Ideal))
    (n : Fin 262144) (c : Fin 256) :
    val_main_v26 (F := Ideal) x0 x1 (ix2 n c) = dotr (rowOf x0 n) (book x1 c) := by
  rw [val_main_v26_apply]
  unfold dotr
  refine Finset.sum_congr rfl fun k _ => ?_
  rw [val_main_v25_apply, idx_dotl, idx_dotr]

/-- The same for the second codebook. -/
theorem dot_g (x0 : (⟨S262144x128, .f32⟩ : BufTy).Contents (Elt Ideal)) (x2 : (⟨S256x128, .f32⟩ : BufTy).Contents (Elt Ideal))
    (n : Fin 262144) (c : Fin 256) :
    val_main_v43 (F := Ideal) x0 x2 (ix2 n c) = dotr (rowOf x0 n) (book x2 c) := by
  rw [val_main_v43_apply]
  unfold dotr
  refine Finset.sum_congr rfl fun k _ => ?_
  rw [val_main_v42_apply, idx_dotl', idx_dotr']

/-! ## The two distances -/

/-- The distance of row `n` to code `c` of the first codebook, with that codebook's squared row norms kept as the
    reference's own `[1, 256]` array. -/
theorem dist_p (x0 : (⟨S262144x128, .f32⟩ : BufTy).Contents (Elt Ideal)) (x1 : (⟨S256x128, .f32⟩ : BufTy).Contents (Elt Ideal))
    (n : Fin 262144) (c : Fin 256) :
    val_main_v32 (F := Ideal) x0 x1 (ix2 n c)
      = dist (rowOf x0 n) (book x1) (row1 (val_main_v21 (F := Ideal) x1)) c := by
  rw [val_main_v32_apply, val_main_v31_apply, val_main_v29_apply, val_main_v24_apply, val_main_v28_apply,
    val_main_v22_apply, val_main_v18_apply, val_main_v23_apply, val_main_v27_apply, val_main_v30_apply,
    val_main_cst_7_apply, val_main_cst_8_apply, idx_col, idx_vec, idx_row, sqn_x, dot_p]
  generalize val_main_v21 (F := Ideal) x1 = ps
  rfl

/-- The distance of row `n` to code `c` of the second codebook. -/
theorem dist_g (x0 : (⟨S262144x128, .f32⟩ : BufTy).Contents (Elt Ideal)) (x2 : (⟨S256x128, .f32⟩ : BufTy).Contents (Elt Ideal))
    (n : Fin 262144) (c : Fin 256) :
    val_main_v49 (F := Ideal) x0 x2 (ix2 n c)
      = dist (rowOf x0 n) (book x2) (row1 (val_main_v38 (F := Ideal) x2)) c := by
  rw [val_main_v49_apply, val_main_v48_apply, val_main_v46_apply, val_main_v41_apply, val_main_v45_apply,
    val_main_v39_apply, val_main_v35_apply, val_main_v40_apply, val_main_v44_apply, val_main_v47_apply,
    val_main_cst_11_apply, val_main_cst_12_apply, idx_col', idx_vec', idx_row', sqn_x', dot_g]
  generalize val_main_v38 (F := Ideal) x2 = gs
  rfl

/-! ## The unnormalised weights -/

/-- The reference's unnormalised weight of code `c` for row `n`, from the two distances and the temperature
    (the temperature is the reference's own scalar stage, read at the scalar shape's one index). -/
theorem ew_at (x0 : (⟨S262144x128, .f32⟩ : BufTy).Contents (Elt Ideal)) (x1 x2 : (⟨S256x128, .f32⟩ : BufTy).Contents (Elt Ideal))
    (x3 : (⟨S1, .f32⟩ : BufTy).Contents (Elt Ideal)) (n : Fin 262144) (c : Fin 256) :
    val_main_v54 (F := Ideal) x0 x1 x2 x3 (ix2 n c)
      = ewOf (dist (rowOf x0 n) (book x1) (row1 (val_main_v21 (F := Ideal) x1)) c)
          (dist (rowOf x0 n) (book x2) (row1 (val_main_v38 (F := Ideal) x2)) c)
          (val_main_v8 (F := Ideal) x3 ix0) := by
  rw [val_main_v54_apply, val_main_v53_apply, val_main_v51_apply, val_main_v50_apply, val_main_v52_apply,
    dist_p, dist_g]
  generalize val_main_v8 (F := Ideal) x3 = T
  generalize dist (rowOf x0 n) (book x1) (row1 (val_main_v21 (F := Ideal) x1)) c = dp
  generalize dist (rowOf x0 n) (book x2) (row1 (val_main_v38 (F := Ideal) x2)) c = dg
  rfl

/-! ## The first normalisation -/

/-- The sum of row `n`'s unnormalised weights over the codes. -/
theorem sum_ew (x0 : (⟨S262144x128, .f32⟩ : BufTy).Contents (Elt Ideal)) (x1 x2 : (⟨S256x128, .f32⟩ : BufTy).Contents (Elt Ideal))
    (x3 : (⟨S1, .f32⟩ : BufTy).Contents (Elt Ideal)) (n : Fin 262144) :
    val_main_v55 (F := Ideal) x0 x1 x2 x3 (ix1 n)
      = ∑ c' : Fin 256, val_main_v54 (F := Ideal) x0 x1 x2 x3 (ix2 n c') := by
  rw [val_main_v55_apply, val_main_cst_13_apply, Ideal.ofBits_def, Ideal.ofBits_zero_f32, zero_add]
  refine Finset.sum_congr rfl fun k _ => ?_
  rw [idx_sum256]

/-- The once-normalised weight of code `c` for row `n`. -/
theorem norm1_at (x0 : (⟨S262144x128, .f32⟩ : BufTy).Contents (Elt Ideal)) (x1 x2 : (⟨S256x128, .f32⟩ : BufTy).Contents (Elt Ideal))
    (x3 : (⟨S1, .f32⟩ : BufTy).Contents (Elt Ideal)) (n : Fin 262144) (c : Fin 256) :
    val_main_v60 (F := Ideal) x0 x1 x2 x3 (ix2 n c)
      = norm1 (fun c' => val_main_v54 (F := Ideal) x0 x1 x2 x3 (ix2 n c')) c := by
  rw [val_main_v60_apply, val_main_v59_apply, val_main_v58_apply, val_main_v56_apply, val_main_v57_apply,
    val_main_cst_14_apply, idx_col1, idx_vec1, sum_ew]
  generalize val_main_v54 (F := Ideal) x0 x1 x2 x3 = e
  rfl

/-! ## The gate and the second normalisation -/

/-- The gated weight of code `c` for row `n`; the gate is the reference's own `[1, 256]` array. -/
theorem gated_at (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) (n : Fin 262144) (c : Fin 256) :
    val_main_v62 (F := Ideal) x0 x1 x2 x3 x4 (ix2 n c)
      = norm1 (fun c' => val_main_v54 (F := Ideal) x0 x1 x2 x3 (ix2 n c')) c * row1 (val_main_v15 (F := Ideal) x4) c := by
  rw [val_main_v62_apply, val_main_v61_apply, idx_gate, norm1_at]
  generalize val_main_v15 (F := Ideal) x4 = gt
  rfl

/-- The sum of row `n`'s gated weights over the codes. -/
theorem sum_gated (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) (n : Fin 262144) :
    val_main_v63 (F := Ideal) x0 x1 x2 x3 x4 (ix1 n)
      = ∑ c' : Fin 256, val_main_v62 (F := Ideal) x0 x1 x2 x3 x4 (ix2 n c') := by
  rw [val_main_v63_apply, val_main_cst_15_apply, Ideal.ofBits_def, Ideal.ofBits_zero_f32, zero_add]
  refine Finset.sum_congr rfl fun k _ => ?_
  rw [idx_sum256']

/-- The reference's first result at `(n, c)` is the specification's weight of code `c` for row `n`. -/
theorem w_at (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) (n : Fin 262144) (c : Fin 256) :
    val_main_v68 (F := Ideal) x0 x1 x2 x3 x4 (ix2 n c)
      = rowW (rowOf x0 n) (book x1) (book x2) (row1 (val_main_v21 (F := Ideal) x1)) (row1 (val_main_v38 (F := Ideal) x2))
          (val_main_v8 (F := Ideal) x3 ix0) (row1 (val_main_v15 (F := Ideal) x4)) c := by
  rw [val_main_v68_apply, val_main_v67_apply, val_main_v66_apply, val_main_v64_apply, val_main_v65_apply,
    val_main_cst_16_apply, idx_col2, idx_vec2, sum_gated]
  unfold rowW norm2
  have hrow : (fun c' : Fin 256 => val_main_v62 (F := Ideal) x0 x1 x2 x3 x4 (ix2 n c'))
      = fun c' => norm1 (fun c'' => val_main_v54 (F := Ideal) x0 x1 x2 x3 (ix2 n c'')) c' * row1 (val_main_v15 (F := Ideal) x4) c' :=
    funext fun c' => gated_at x0 x1 x2 x3 x4 n c'
  have he : (fun c' : Fin 256 => val_main_v54 (F := Ideal) x0 x1 x2 x3 (ix2 n c'))
      = fun c' => ewOf (dist (rowOf x0 n) (book x1) (row1 (val_main_v21 (F := Ideal) x1)) c')
          (dist (rowOf x0 n) (book x2) (row1 (val_main_v38 (F := Ideal) x2)) c') (val_main_v8 (F := Ideal) x3 ix0) :=
    funext fun c' => ew_at x0 x1 x2 x3 n c'
  rw [← he, ← hrow]
  generalize val_main_v62 (F := Ideal) x0 x1 x2 x3 x4 = u
  rfl

/-! ## The blend -/

/-- The reference's second result at `(n, d)` is the specification's blend of the first codebook's rows. -/
theorem b_at (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) (n : Fin 262144) (d : Fin 128) :
    val_main_v69 (F := Ideal) x0 x1 x2 x3 x4 (ix2 n d)
      = rowB (rowOf x0 n) (book x1) (book x2) (row1 (val_main_v21 (F := Ideal) x1)) (row1 (val_main_v38 (F := Ideal) x2))
          (val_main_v8 (F := Ideal) x3 ix0) (row1 (val_main_v15 (F := Ideal) x4)) d := by
  rw [val_main_v69_apply]
  unfold rowB
  refine Finset.sum_congr rfl fun k _ => ?_
  rw [idx_outl, idx_outr, w_at]

/-! ## The two results as whole arrays -/

theorem ref_w (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) :
    val_main_v68 (F := Ideal) x0 x1 x2 x3 x4
      = Cert.SoftSom.W (M := 262144) x0 x1 x2 (val_main_v21 (F := Ideal) x1) (val_main_v38 (F := Ideal) x2)
          (val_main_v8 (F := Ideal) x3 ix0) (val_main_v15 (F := Ideal) x4) := by
  funext i
  obtain ⟨n, q, rfl⟩ : ∃ (n : Fin 262144) (q : Fin 256), i = ix2 n q := ⟨i 0, i 1, eq_ix2 i⟩
  rw [w_at, W_ix2]

theorem ref_b (x0 : (⟨S262144x128, .f32⟩ : BufTy).Contents (Elt Ideal)) (x1 x2 : (⟨S256x128, .f32⟩ : BufTy).Contents (Elt Ideal))
    (x3 : (⟨S1, .f32⟩ : BufTy).Contents (Elt Ideal)) (x4 : (⟨S256, .f32⟩ : BufTy).Contents (Elt Ideal)) :
    val_main_v69 (F := Ideal) x0 x1 x2 x3 x4
      = Cert.SoftSom.B (M := 262144) x0 x1 x2 (val_main_v21 (F := Ideal) x1) (val_main_v38 (F := Ideal) x2)
          (val_main_v8 (F := Ideal) x3 ix0) (val_main_v15 (F := Ideal) x4) := by
  funext i
  obtain ⟨n, d, rfl⟩ : ∃ (n : Fin 262144) (d : Fin 128), i = ix2 n d := ⟨i 0, i 1, eq_ix2 i⟩
  rw [b_at, B_ix2]

end Cert.ReferenceIdeal.RefValue

end
-- ==== Proof.lean ====
/-
  The soft self-organising-map kernel against its reference, on the extended reals.

  Both programs compute, for each of the 262144 data rows `x`, the weights
  `w = normalise (gate · normalise (exp (−(dist(x, P) + dist(x, G)) / T)))` over 256 codes — where
  `dist(x, Q)_c = √ max (‖x‖² + ‖Q_c‖² − 2 ⟨x, Q_c⟩, ε)`, `T` is a logistic of the temperature argument scaled into
  `(0.001, 1)`, the gate is a logistic of the gate logits and each normalisation divides by the sum plus a small
  term — and the blend `w · P`. The kernel works on blocks of 2048 rows with the codebooks narrowed to a shorter
  format (the identity on the extended reals), takes inner products on the matrix unit into a zero accumulator, and
  negates by subtracting from zero; the reference uses the host's products, sums and negation. On the extended
  reals every step agrees entry by entry: no distributive law and no cancellation is used, so the precondition is
  never opened.

  The proof: one specification (Spec.lean) of a row's weights and blend; the kernel body's stored blocks are the
  specification at 2048 rows (Payload.lean); the blocks that the 128 grid points write back tile the two result
  arrays with the specification at 262144 rows (Blocks.lean); the parameter arrays that the kernel's host
  operations prepare are the reference's own intermediate stages of the same arguments (HostValue.lean); the
  reference's two results, read one operation at a time, are the specification of those stages (RefValue.lean).
-/
import proofs.«172261_j46643344834799_1_alg».proof.Defs
import proofs.«172261_j46643344834799_1_alg».proof.Proof.Gen.Kernel
import proofs.«172261_j46643344834799_1_alg».proof.Proof.Gen.Kernel.Skeleton
import proofs.«172261_j46643344834799_1_alg».proof.Proof.Gen.Kernel.Launch
import proofs.«172261_j46643344834799_1_alg».proof.Proof.Gen.Kernel.Points
import proofs.«172261_j46643344834799_1_alg».proof.Proof.Gen.Kernel.Frame
import proofs.«172261_j46643344834799_1_alg».proof.Proof.Gen.KernelIdeal
import proofs.«172261_j46643344834799_1_alg».proof.Proof.Gen.KernelIdeal.Skeleton
import proofs.«172261_j46643344834799_1_alg».proof.Proof.Gen.KernelIdeal.Launch
import proofs.«172261_j46643344834799_1_alg».proof.Proof.Gen.KernelIdeal.Points
import proofs.«172261_j46643344834799_1_alg».proof.Proof.Gen.KernelIdeal.Frame
import proofs.«172261_j46643344834799_1_alg».proof.Proof.Gen.ReferenceIdeal
import proofs.«172261_j46643344834799_1_alg».proof.Proof.Gen.Pre_finite_inputs
import proofs.«172261_j46643344834799_1_alg».proof.Proof.Gen.KernelIdeal.Value
import proofs.«172261_j46643344834799_1_alg».proof.Proof.Gen.ReferenceIdeal.Run
import proofs.«172261_j46643344834799_1_alg».proof.Proof.Gen.ReferenceIdeal.Read
import proofs.«172261_j46643344834799_1_alg».proof.Proof.Blocks
import proofs.«172261_j46643344834799_1_alg».proof.Proof.HostValue
import proofs.«172261_j46643344834799_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

section Values

open Cert.KernelIdeal Cert.KernelIdeal.Gen Cert.KernelIdeal.BlockValue Cert.KernelIdeal.HostValue

variable (m : (ℓ : Loc nD τ sig) → Buf (Elt Ideal) ℓ)

/-- The kernel's weights array as the specification of the ARGUMENTS and of the reference's stages of them. -/
theorem Wk_eq (c : Dev nD) :
    Wk m c = Cert.SoftSom.W (M := 262144) (m ((c : Thread nD τ).loc main_arg0)) (m ((c : Thread nD τ).loc main_arg1))
      (m ((c : Thread nD τ).loc main_arg2))
      (Cert.ReferenceIdeal.Read.val_main_v21 (F := Ideal) (m ((c : Thread nD τ).loc main_arg1)))
      (Cert.ReferenceIdeal.Read.val_main_v38 (F := Ideal) (m ((c : Thread nD τ).loc main_arg2)))
      (Cert.ReferenceIdeal.Read.val_main_v8 (F := Ideal) (m ((c : Thread nD τ).loc main_arg3)) ix0)
      (Cert.ReferenceIdeal.Read.val_main_v15 (F := Ideal) (m ((c : Thread nD τ).loc main_arg4))) := by
  unfold Wk
  rw [V_main_arg0, V_pb, V_gb, V_psq, V_gsq, V_temp_apply, V_gate]

/-- The kernel's blends array likewise. -/
theorem Bk_eq (c : Dev nD) :
    Bk m c = Cert.SoftSom.B (M := 262144) (m ((c : Thread nD τ).loc main_arg0)) (m ((c : Thread nD τ).loc main_arg1))
      (m ((c : Thread nD τ).loc main_arg2))
      (Cert.ReferenceIdeal.Read.val_main_v21 (F := Ideal) (m ((c : Thread nD τ).loc main_arg1)))
      (Cert.ReferenceIdeal.Read.val_main_v38 (F := Ideal) (m ((c : Thread nD τ).loc main_arg2)))
      (Cert.ReferenceIdeal.Read.val_main_v8 (F := Ideal) (m ((c : Thread nD τ).loc main_arg3)) ix0)
      (Cert.ReferenceIdeal.Read.val_main_v15 (F := Ideal) (m ((c : Thread nD τ).loc main_arg4))) := by
  unfold Bk
  rw [V_main_arg0, V_pb, V_gb, V_psq, V_gsq, V_temp_apply, V_gate]

end Values

theorem frame_k : Cert.frame_Kernel := fun m ρ _ => Cert.Kernel.Gen.frame m ρ

theorem frame_ki : Cert.frame_KernelIdeal := fun m ρ _ => Cert.KernelIdeal.Gen.frame m ρ

/-- The reference has no kernel: its frame is its read-back run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs, from memories agreeing on the arguments, end with the specification's blends and weights of the
    arguments. -/
theorem algebraic : Cert.algebraic_KernelIdeal_ReferenceIdeal := by
  intro m ρ m' ρ' _ hagree
  refine ⟨fun c => Cert.KernelIdeal.BlockValue.Bk m c, fun c => Cert.KernelIdeal.BlockValue.Wk m c,
    Cert.KernelIdeal.BlockValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v69_eq, Cert.ReferenceIdeal.RefValue.ref_b,
      (hagree c).1, (hagree c).2.1, (hagree c).2.2.1, (hagree c).2.2.2.1, (hagree c).2.2.2.2]
    exact (Bk_eq m c).symm
  · rw [Cert.ReferenceIdeal.Read.val_main_v68_eq, Cert.ReferenceIdeal.RefValue.ref_w,
      (hagree c).1, (hagree c).2.1, (hagree c).2.2.1, (hagree c).2.2.2.1, (hagree c).2.2.2.2]
    exact (Wk_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
